-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x256x256 : Shape := ⟨4, ![32, 8, 256, 256]⟩
abbrev S65536 : Shape := ⟨1, ![65536]⟩
abbrev S_ : Shape := ⟨0, ![]⟩

class Facts : Prop where
  bcast_S_S32x8x256x256 : S_.BroadcastsInDim S32x8x256x256 (![] : Fin 0 → Fin S32x8x256x256.rank)
  reducesTo_S32x8x256x256_S_d0_1_2_3 : S32x8x256x256.ReducesTo [0, 1, 2, 3] S_
  h_S_ : 0 < S_.numel
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S32x8x256x256 .f32) (main_arg1 : FVec F S32x8x256x256 .f32) (main_arg2 : FVec F S65536 .f32) : IVec S_ 1 :=
  let main_v0 : FVec F S32x8x256x256 .f32 := Host.absf main_arg0
  let main_cst : FVec F S_ .f32 := constant S_ .f32 0x7F800000#32
  let main_v1 : FVec F S32x8x256x256 .f32 := broadcastInDim S32x8x256x256 ![] bcast_S_S32x8x256x256 main_cst
  let main_v2 : IVec S32x8x256x256 1 := cmpf .olt main_v0 main_v1
  let main_c : IVec S_ 1 := constantI S_ 1 1#1
  let main_v3 : IVec S_ 1 := (fun x v => Host.reduce IntOp.andi x v reducesTo_S32x8x256x256_S_d0_1_2_3 h_S_) main_v2 main_c
  let main_v4 : FVec F S32x8x256x256 .f32 := Host.absf main_arg1
  let main_cst_0 : FVec F S_ .f32 := constant S_ .f32 0x7F800000#32
  let main_v5 : FVec F S32x8x256x256 .f32 := broadcastInDim S32x8x256x256 ![] bcast_S_S32x8x256x256 main_cst_0
  let main_v6 : IVec S32x8x256x256 1 := cmpf .olt main_v4 main_v5
  let main_c_1 : IVec S_ 1 := constantI S_ 1 1#1
  let main_v7 : IVec S_ 1 := (fun x v => Host.reduce IntOp.andi x v reducesTo_S32x8x256x256_S_d0_1_2_3 h_S_) main_v6 main_c_1
  let main_v8 : IVec S_ 1 := andi main_v3 main_v7
  let main_v9 : FVec F S65536 .f32 := Host.absf main_arg2
  let main_cst_2 : FVec F S_ .f32 := constant S_ .f32 0x7F800000#32
  let main_v10 : FVec F S65536 .f32 := broadcastInDim S65536 ![] bcast_S_S65536 main_cst_2
  let main_v11 : IVec S65536 1 := cmpf .olt main_v9 main_v10
  let main_c_3 : IVec S_ 1 := constantI S_ 1 1#1
  let main_v12 : IVec S_ 1 := (fun x v => Host.reduce IntOp.andi x v reducesTo_S65536_S_d0 h_S_) main_v11 main_c_3
  let main_v13 : IVec S_ 1 := andi main_v8 main_v12
  main_v13
-- ==== Kernel.lean ====
abbrev S32x8x256x256 : Shape := ⟨4, ![32, 8, 256, 256]⟩
abbrev S65536 : Shape := ⟨1, ![65536]⟩
abbrev S256x256x256 : Shape := ⟨3, ![256, 256, 256]⟩
abbrev S256x256 : Shape := ⟨2, ![256, 256]⟩
abbrev S16x256x256 : Shape := ⟨3, ![16, 256, 256]⟩
abbrev S1x256x256 : Shape := ⟨3, ![1, 256, 256]⟩

abbrev nBuf : Space → Nat
  | .hbm => 11
  | .vmem => 9
  | .smem => 0
  | _ => 0

abbrev bufTy : (tb : Table) → Fin (tcTables nBuf tb) → BufTy
  | .hbm, ⟨0, _⟩ => ⟨S32x8x256x256, .f32⟩
  | .hbm, ⟨1, _⟩ => ⟨S32x8x256x256, .f32⟩
  | .hbm, ⟨2, _⟩ => ⟨S65536, .f32⟩
  | .hbm, ⟨3, _⟩ => ⟨S256x256x256, .f32⟩
  | .hbm, ⟨4, _⟩ => ⟨S256x256x256, .f32⟩
  | .hbm, ⟨5, _⟩ => ⟨S65536, .f32⟩
  | .hbm, ⟨6, _⟩ => ⟨S256x256, .f32⟩
  | .hbm, ⟨7, _⟩ => ⟨S256x256x256, .f32⟩
  | .hbm, ⟨8, _⟩ => ⟨S256x256x256, .f32⟩
  | .hbm, ⟨9, _⟩ => ⟨S32x8x256x256, .f32⟩
  | .hbm, ⟨10, _⟩ => ⟨S32x8x256x256, .f32⟩
  | .local _ .vmem, ⟨0, _⟩ => ⟨S16x256x256, .f32⟩
  | .local _ .vmem, ⟨1, _⟩ => ⟨S16x256x256, .f32⟩
  | .local _ .vmem, ⟨2, _⟩ => ⟨S16x256x256, .f32⟩
  | .local _ .vmem, ⟨3, _⟩ => ⟨S16x256x256, .f32⟩
  | .local _ .vmem, ⟨4, _⟩ => ⟨S256x256, .f32⟩
  | .local _ .vmem, ⟨5, _⟩ => ⟨S16x256x256, .f32⟩
  | .local _ .vmem, ⟨6, _⟩ => ⟨S16x256x256, .f32⟩
  | .local _ .vmem, ⟨7, _⟩ => ⟨S16x256x256, .f32⟩
  | .local _ .vmem, ⟨8, _⟩ => ⟨S16x256x256, .f32⟩
  | _, _ => ⟨S32x8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4_0 : Ref sig .tc := ⟨.hbm, 7, rfl⟩
abbrev main_call0_v4_1 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32x8x256x256_S256x256x256 : S32x8x256x256.ShapeCasts S256x256x256
  shapeCasts_S65536_S256x256 : S65536.ShapeCasts S256x256
  shapeCasts_S256x256x256_S32x8x256x256 : S256x256x256.ShapeCasts S32x8x256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256x256_S1x256x256 : S256x256.ShapeCasts S1x256x256
  inb_S16x256x256_S16x256x256_0_0_0 : ∀ a, (![0, 0, 0] : Fin 3 → Nat) a + S16x256x256.size a ≤ S16x256x256.size a
  h_S16x256x256 : 0 < S16x256x256.numel
  shapeCasts_S16x256x256_S16x256x256 : S16x256x256.ShapeCasts S16x256x256
  broadcasts_S1x256x256_S16x256x256 : S1x256x256.Broadcasts S16x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x256.size a ≤ S256x256x256.size a
  hwx0_0 : ∀ i : grid0.Coords, EltTy.bits .f32 = 32 ∨ (Rect.block (s := S256x256x256) S16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x256.size a ≤ S256x256x256.size a
  hwx0_1 : ∀ i : grid0.Coords, EltTy.bits .f32 = 32 ∨ (Rect.block (s := S256x256x256) S16x256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x256x256.size a ≤ S256x256x256.size a
  hwx0_3 : ∀ i : grid0.Coords, EltTy.bits .f32 = 32 ∨ (Rect.block (s := S256x256x256) S16x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x256x256.size a ≤ S256x256x256.size a
  hwx0_4 : ∀ i : grid0.Coords, EltTy.bits .f32 = 32 ∨ (Rect.block (s := S256x256x256) S16x256x256.size (cc0_transform_4 i) (hinb0_4 i)).WholeWords (EltTy.packing .f32)

variable [Facts₀]

abbrev win0_0 : Pipeline.Window sig grid0 :=
  Pipeline.Window.ofSpec (Memref.whole main_call0_v0) S16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S16x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4_0) S16x256x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4_1) S16x256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x8x256x256 : Shape := ⟨4, ![32, 8, 256, 256]⟩
abbrev S65536 : Shape := ⟨1, ![65536]⟩
abbrev S256x256 : Shape := ⟨2, ![256, 256]⟩
abbrev S1x1x256x256 : Shape := ⟨4, ![1, 1, 256, 256]⟩

abbrev nBuf : Space → Nat
  | .hbm => 11
  | .vmem => 0
  | .smem => 0
  | _ => 0

abbrev bufTy : (tb : Table) → Fin (tcTables nBuf tb) → BufTy
  | .hbm, ⟨0, _⟩ => ⟨S32x8x256x256, .f32⟩
  | .hbm, ⟨1, _⟩ => ⟨S32x8x256x256, .f32⟩
  | .hbm, ⟨2, _⟩ => ⟨S65536, .f32⟩
  | .hbm, ⟨3, _⟩ => ⟨S65536, .f32⟩
  | .hbm, ⟨4, _⟩ => ⟨S256x256, .f32⟩
  | .hbm, ⟨5, _⟩ => ⟨S1x1x256x256, .f32⟩
  | .hbm, ⟨6, _⟩ => ⟨S32x8x256x256, .f32⟩
  | .hbm, ⟨7, _⟩ => ⟨S32x8x256x256, .f32⟩
  | .hbm, ⟨8, _⟩ => ⟨S1x1x256x256, .f32⟩
  | .hbm, ⟨9, _⟩ => ⟨S32x8x256x256, .f32⟩
  | .hbm, ⟨10, _⟩ => ⟨S32x8x256x256, .f32⟩
  | _, _ => ⟨S32x8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  shapeCasts_S65536_S256x256 : S65536.ShapeCasts S256x256
  bcast_S256x256_S1x1x256x256_2_3 : S256x256.BroadcastsInDim S1x1x256x256 (![2, 3] : Fin 2 → Fin S1x1x256x256.rank)
  bcast_S1x1x256x256_S32x8x256x256_0_1_2_3 : S1x1x256x256.BroadcastsInDim S32x8x256x256 (![0, 1, 2, 3] : Fin 4 → Fin S32x8x256x256.rank)

variable [Facts₀]

class Facts : Prop extends Facts₀ where

variable [Facts]
-- ==== Proof.ColumnScale.lean ====
/-
  Scaling every 256×256 plane of a stack by one fixed plane of factors.

  The arrays here are a batch x of shape [32, 8, 256, 256] and a vector b of 65536 numbers. The result is
  x[n, k, h, w] · g(b[256·h + w]) for a scalar function g applied entry by entry: the factor depends on the
  position (h, w) inside a plane only, never on which plane (n, k) it is.  Two arrangements of that product meet
  here.  One multiplies the batch, as it stands, by the factors spread over the two leading axes.  The other first
  lays the batch out as 256 planes [256, 256, 256] (plane 8·n + k), multiplies each plane by the factors laid out
  as one plane [256, 256], sixteen planes at a time, and lays the product back out as a batch.  Both laying-out steps
  keep the row-major position of every entry, so the two arrangements are the same function index by index; no
  property of the multiplication or of g is used, only which entries meet.
-/
import Idealize.ShloMosaic.PureOps
import Idealize.ShloMosaic.Lib.Pipeline.Value
import Idealize.ShloMosaic.Lib.ValueIdx

noncomputable section

namespace Cert.ColumnScale

open Idealize.ShloMosaic

/-- A batch: 32 × 8 planes of 256 × 256. -/
abbrev Batch : Shape := ⟨4, ![32, 8, 256, 256]⟩
/-- The same entries as a stack of 256 planes. -/
abbrev Planes : Shape := ⟨3, ![256, 256, 256]⟩
/-- Sixteen consecutive planes of the stack. -/
abbrev Tile : Shape := ⟨3, ![16, 256, 256]⟩
/-- One plane with a leading unit axis. -/
abbrev UnitPlane : Shape := ⟨3, ![1, 256, 256]⟩
/-- One plane. -/
abbrev Plane : Shape := ⟨2, ![256, 256]⟩
/-- A plane's entries in one row. -/
abbrev Flat : Shape := ⟨1, ![65536]⟩

variable {F : FTy → Type} [FloatOps F]

/-- The position (h, w) inside its plane of entry (p, h, w) of a stack of n planes. -/
def inPlane {n : Nat} (j : (⟨3, ![n, 256, 256]⟩ : Shape).Idx) : Plane.Idx := fun a => match a with
  | ⟨0, _⟩ => ⟨(j 1).val, (j 1).isLt⟩
  | ⟨1, _⟩ => ⟨(j 2).val, (j 2).isLt⟩

/-- A stack of n planes times one plane of factors: entry (p, h, w) is x (p, h, w) · s (h, w). -/
def planeScale {n : Nat} (x : FVec F ⟨3, ![n, 256, 256]⟩ .f32) (s : FVec F Plane .f32) : FVec F ⟨3, ![n, 256, 256]⟩ .f32 :=
  fun j => FloatOps.mulf (x j) (s (inPlane j))

/-- The product as a kernel body forms it on sixteen planes: the plane of factors is given a leading unit axis, spread
    over the sixteen planes and multiplied in.  Entry by entry that is `planeScale`. -/
theorem tile_eq (s : Vec F Plane .f32) (x : Vec F Tile .f32)
    (hx : Tile.ShapeCasts Tile) (hs : Plane.ShapeCasts Plane) (hu : Plane.ShapeCasts UnitPlane)
    (hb : UnitPlane.Broadcasts Tile) :
    mulf (shapeCast Tile x hx) (broadcastTo Tile (shapeCast UnitPlane (shapeCast Plane s hs) hu) hb)
      = planeScale (F := F) x s := by
  funext j
  show FloatOps.mulf (shapeCast Tile x hx j) (broadcastTo Tile (shapeCast UnitPlane (shapeCast Plane s hs) hu) hb j) = _
  rw [shapeCast_self, shapeCast_self,
    broadcastTo_apply _ hb j (fun a => match a with
      | ⟨0, _⟩ => ⟨0, Nat.one_pos⟩
      | ⟨1, _⟩ => j 1
      | ⟨2, _⟩ => j 2) (fun a => match a with
      | ⟨0, _⟩ => by show 0 = if (1 : Nat) = 1 then 0 else _; rw [if_pos rfl]
      | ⟨1, _⟩ => by show (j 1).val = if (256 : Nat) = 1 then 0 else (j 1).val; rw [if_neg (by decide)]
      | ⟨2, _⟩ => by show (j 2).val = if (256 : Nat) = 1 then 0 else (j 2).val; rw [if_neg (by decide)]),
    shapeCast_addUnit_apply]
  unfold planeScale
  congr 2
  funext a
  match a with
  | ⟨0, _⟩ => rfl
  | ⟨1, _⟩ => rfl

/-- The plane (8·n + k) of the stack that holds plane (n, k) of the batch, with the same (h, w). -/
def toPlanes (i : Batch.Idx) : Planes.Idx := fun a => match a with
  | ⟨0, _⟩ => ⟨(i 0).val * 8 + (i 1).val, by
      have h0 : (i 0).val < 32 := (i 0).isLt; have h1 : (i 1).val < 8 := (i 1).isLt; show _ < 256; omega⟩
  | ⟨1, _⟩ => ⟨(i 2).val, (i 2).isLt⟩
  | ⟨2, _⟩ => ⟨(i 3).val, (i 3).isLt⟩

/-- Position 256·h + w of the row that holds a plane's entry (h, w). -/
def toFlat (i : Batch.Idx) : Flat.Idx := fun a => match a with
  | ⟨0, _⟩ => ⟨(i 2).val * 256 + (i 3).val, by
      have h2 : (i 2).val < 256 := (i 2).isLt; have h3 : (i 3).val < 256 := (i 3).isLt; show _ < 65536; omega⟩

/-- THE TWO ARRANGEMENTS AGREE.  Lay the batch out as 256 planes, lay the row of factors out as one plane, multiply
    plane by plane, lay the product back out as a batch: entry (n, k, h, w) is x (n, k, h, w) · f (256·h + w), because
    each laying-out keeps row-major positions: ((8·n + k)·256 + h)·256 + w is ((n·8 + k)·256 + h)·256 + w. -/
theorem relaid_apply (x : FVec F Batch .f32) (f : FVec F Flat .f32)
    (h1 : Batch.ShapeCasts Planes) (h2 : Flat.ShapeCasts Plane) (h3 : Planes.ShapeCasts Batch) (i : Batch.Idx) :
    shapeCast Batch (planeScale (F := F) (shapeCast Planes x h1) (shapeCast Plane f h2)) h3 i
      = FloatOps.mulf (x i) (f (toFlat i)) := by
  have hi0 : (i 0).val < 32 := (i 0).isLt
  have hi1 : (i 1).val < 8 := (i 1).isLt
  have hi2 : (i 2).val < 256 := (i 2).isLt
  have hi3 : (i 3).val < 256 := (i 3).isLt
  rw [shapeCast_apply _ h3 i (toPlanes i) (by
    rw [Shape.rowMajor_val_three, Shape.rowMajor_val_four]
    show (((i 0).val * 8 + (i 1).val) * 256 + (i 2).val) * 256 + (i 3).val
      = (((i 0).val * 8 + (i 1).val) * 256 + (i 2).val) * 256 + (i 3).val
    rfl)]
  unfold planeScale
  rw [shapeCast_apply x h1 (toPlanes i) i (by
    rw [Shape.rowMajor_val_three, Shape.rowMajor_val_four]
    show (((i 0).val * 8 + (i 1).val) * 256 + (i 2).val) * 256 + (i 3).val
      = (((i 0).val * 8 + (i 1).val) * 256 + (i 2).val) * 256 + (i 3).val
    rfl),
    shapeCast_apply f h2 (inPlane (toPlanes i)) (toFlat i) (by
    rw [Shape.rowMajor_val_one, Shape.rowMajor_val_two]
    show (i 2).val * 256 + (i 3).val = (i 2).val * 256 + (i 3).val
    rfl)]

/-- THE RESULT, index by index: entry (n, k, h, w) of the batch times the exponential of entry 256·h + w of the row. -/
def colScale (x : FVec F Batch .f32) (b : FVec F Flat .f32) : FVec F Batch .f32 :=
  fun i => FloatOps.mulf (x i) (FloatOps.hostUnary .exp (b (toFlat i)))

/-- The plane-by-plane arrangement, with the exponential taken of the whole row first, is `colScale`. -/
theorem relaid_eq (x : FVec F Batch .f32) (b : FVec F Flat .f32)
    (h1 : Batch.ShapeCasts Planes) (h2 : Flat.ShapeCasts Plane) (h3 : Planes.ShapeCasts Batch) :
    shapeCast Batch (planeScale (F := F) (shapeCast Planes x h1) (shapeCast Plane (Host.exp b) h2)) h3
      = colScale x b :=
  funext fun i => (relaid_apply x (Host.exp b) h1 h2 h3 i).trans rfl

end Cert.ColumnScale

end
-- ==== Proof.PlaneValue.lean ====
/-
  What the kernel leaves in its two output arrays, as whole-array functions.

  The stack of 256 planes is processed sixteen planes at a time: point t of the grid reads planes 16·t … 16·t + 15
  of each of the two inputs and the one whole plane of factors, and writes the products back to the same sixteen
  planes of the two outputs.  So what point t writes is block t of ONE function of the whole arrays — plane p, entry
  (h, w), is x (p, h, w) · s (h, w) — and the sixteen blocks tile the stack: plane p lies in block p / 16.  Hence each
  output array ends as that function.
-/
import proofs.«159716_j72559177499246_2_alg».proof.Proof.Gen.KernelIdeal.Frame
import proofs.«159716_j72559177499246_2_alg».proof.Proof.ColumnScale
import Idealize.ShloMosaic.Lib.Pipeline.Value

noncomputable section

namespace Cert.KernelIdeal.PlaneValue

open Cert.KernelIdeal Cert.KernelIdeal.Gen Idealize.ShloMosaic Idealize.ShloMosaic.TcCoe Idealize.SL.Sem
open Idealize.ShloMosaic.Pipeline (Dat)
open Cert.ColumnScale (planeScale inPlane)

variable {F : FTy → Type} [FloatOps F]
variable (m : (ℓ : Loc nD τ sig) → Buf (Elt F) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The first store's value: the sixteen planes of the first input times the plane of factors. -/
theorem pay2_eq (v0 : Vec F S256x256 .f32) (v3 : Vec F S16x256x256 .f32) :
    k0_pay2 v0 v3 = planeScale (F := F) (n := 16) v3 v0 := by
  unfold k0_pay2 k0_pay1
  exact Cert.ColumnScale.tile_eq v0 v3 _ _ _ _

/-- The second store's value: the same with the second input. -/
theorem pay3_eq (v0 : Vec F S256x256 .f32) (v8 : Vec F S16x256x256 .f32) :
    k0_pay3 v0 v8 = planeScale (F := F) (n := 16) v8 v0 := by
  unfold k0_pay3 k0_pay1
  exact Cert.ColumnScale.tile_eq v0 v8 _ _ _ _

/-- Where the blocks sit: at point t the four stacked windows are at block t along the planes and at block 0 along
    h and w, and the window of factors is at block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- WHAT POINT t WRITES BACK to the first output is block t of the first input stack times the plane of factors. -/
theorem flushed3_eq (c : Dev nD) (t : Fin cfg0.N) :
    (dats m 0 c).flushed 3 t = ((cfg0.win 3).blk t).view.read (Elt F)
      (planeScale (F := F) (n := 256) (V m c main_call0_v0) (V m c main_call0_v3)) := by
  show (cfg0.win 3).cut (grid0.coords t) ((dats m 0 c).after 3 t) = _
  rw [after0_3]
  unfold out0_3
  rw [View.canon_unit_zero zero3]
  simp only [View.ld_unit_zero (S := S16x256x256) zero3, View.ld_unit_zero (S := S256x256) zero2]
  rw [pay2_eq]
  obtain ⟨a0, a1, a2, b0, b1, b2, s0, s1, o0, o1, o2, p0, p1, p2⟩ := idx_facts t
  funext j
  show FloatOps.mulf (V m c main_call0_v0 (((cfg0.win 0).blk t).view.emb j))
      (V m c main_call0_v3 (((cfg0.win 2).blk t).view.emb (inPlane (n := 16) j)))
    = FloatOps.mulf (V m c main_call0_v0 (((cfg0.win 3).blk t).view.emb j))
      (V m c main_call0_v3 (inPlane (n := 256) (((cfg0.win 3).blk t).view.emb j)))
  have hj0 : (j 0).val < 16 := (j 0).isLt
  have hj1 : (j 1).val < 256 := (j 1).isLt
  have hj2 : (j 2).val < 256 := (j 2).isLt
  have h0 : ((cfg0.win 0).blk t).view.emb j = ((cfg0.win 3).blk t).view.emb j := by
    funext a; apply Fin.ext
    match a with
    | ⟨0, _⟩ => show win0_0.index t (0 : Fin 3) * 16 + 1 * (j 0).val = win0_3.index t (0 : Fin 3) * 16 + 1 * (j 0).val; omega
    | ⟨1, _⟩ => show win0_0.index t (1 : Fin 3) * 256 + 1 * (j 1).val = win0_3.index t (1 : Fin 3) * 256 + 1 * (j 1).val; omega
    | ⟨2, _⟩ => show win0_0.index t (2 : Fin 3) * 256 + 1 * (j 2).val = win0_3.index t (2 : Fin 3) * 256 + 1 * (j 2).val; omega
  have h2 : ((cfg0.win 2).blk t).view.emb (inPlane (n := 16) j) = inPlane (n := 256) (((cfg0.win 3).blk t).view.emb j) := by
    funext a; apply Fin.ext
    match a with
    | ⟨0, _⟩ => show win0_2.index t (0 : Fin 2) * 256 + 1 * (j 1).val = win0_3.index t (1 : Fin 3) * 256 + 1 * (j 1).val; omega
    | ⟨1, _⟩ => show win0_2.index t (1 : Fin 2) * 256 + 1 * (j 2).val = win0_3.index t (2 : Fin 3) * 256 + 1 * (j 2).val; omega
  rw [h0, h2]

/-- WHAT POINT t WRITES BACK to the second output is block t of the second input stack times the plane of factors. -/
theorem flushed4_eq (c : Dev nD) (t : Fin cfg0.N) :
    (dats m 0 c).flushed 4 t = ((cfg0.win 4).blk t).view.read (Elt F)
      (planeScale (F := F) (n := 256) (V m c main_call0_v1) (V m c main_call0_v3)) := by
  show (cfg0.win 4).cut (grid0.coords t) ((dats m 0 c).after 4 t) = _
  rw [after0_4]
  unfold out0_4
  rw [View.canon_unit_zero zero3]
  simp only [View.ld_unit_zero (S := S16x256x256) zero3, View.ld_unit_zero (S := S256x256) zero2]
  rw [pay3_eq]
  obtain ⟨a0, a1, a2, b0, b1, b2, s0, s1, o0, o1, o2, p0, p1, p2⟩ := idx_facts t
  funext j
  show FloatOps.mulf (V m c main_call0_v1 (((cfg0.win 1).blk t).view.emb j))
      (V m c main_call0_v3 (((cfg0.win 2).blk t).view.emb (inPlane (n := 16) j)))
    = FloatOps.mulf (V m c main_call0_v1 (((cfg0.win 4).blk t).view.emb j))
      (V m c main_call0_v3 (inPlane (n := 256) (((cfg0.win 4).blk t).view.emb j)))
  have hj0 : (j 0).val < 16 := (j 0).isLt
  have hj1 : (j 1).val < 256 := (j 1).isLt
  have hj2 : (j 2).val < 256 := (j 2).isLt
  have h1 : ((cfg0.win 1).blk t).view.emb j = ((cfg0.win 4).blk t).view.emb j := by
    funext a; apply Fin.ext
    match a with
    | ⟨0, _⟩ => show win0_1.index t (0 : Fin 3) * 16 + 1 * (j 0).val = win0_4.index t (0 : Fin 3) * 16 + 1 * (j 0).val; omega
    | ⟨1, _⟩ => show win0_1.index t (1 : Fin 3) * 256 + 1 * (j 1).val = win0_4.index t (1 : Fin 3) * 256 + 1 * (j 1).val; omega
    | ⟨2, _⟩ => show win0_1.index t (2 : Fin 3) * 256 + 1 * (j 2).val = win0_4.index t (2 : Fin 3) * 256 + 1 * (j 2).val; omega
  have h2 : ((cfg0.win 2).blk t).view.emb (inPlane (n := 16) j) = inPlane (n := 256) (((cfg0.win 4).blk t).view.emb j) := by
    funext a; apply Fin.ext
    match a with
    | ⟨0, _⟩ => show win0_2.index t (0 : Fin 2) * 256 + 1 * (j 1).val = win0_4.index t (1 : Fin 3) * 256 + 1 * (j 1).val; omega
    | ⟨1, _⟩ => show win0_2.index t (1 : Fin 2) * 256 + 1 * (j 2).val = win0_4.index t (2 : Fin 3) * 256 + 1 * (j 2).val; omega
  rw [h1, h2]

/-- An entry of the first output stack lies in point t's block iff each coordinate lies in the block's range. -/
theorem mem_blk3 (t : Fin cfg0.N) (i : S256x256x256.Idx) :
    i ∈ ((cfg0.win 3).blk t).view.set ↔ ∀ a : Fin 3, win0_3.index t a * S16x256x256.size a ≤ (i a).val
      ∧ (i a).val < win0_3.index t a * S16x256x256.size a + S16x256x256.size a := by
  show i ∈ ((View.whole main_call0_v4_0).slice (win0_3.rect t)).set ↔ _
  rw [View.set_slice_whole, Rect.mem_set_unit]
  exact Iff.rfl

/-- The same for the second output stack. -/
theorem mem_blk4 (t : Fin cfg0.N) (i : S256x256x256.Idx) :
    i ∈ ((cfg0.win 4).blk t).view.set ↔ ∀ a : Fin 3, win0_4.index t a * S16x256x256.size a ≤ (i a).val
      ∧ (i a).val < win0_4.index t a * S16x256x256.size a + S16x256x256.size a := by
  show i ∈ ((View.whole main_call0_v4_1).slice (win0_4.rect t)).set ↔ _
  rw [View.set_slice_whole, Rect.mem_set_unit]
  exact Iff.rfl

/-- The grid point whose block holds plane p: p / 16. -/
def pointOf (i : S256x256x256.Idx) : Fin cfg0.N :=
  ⟨(i 0).val / 16, by have h : (i 0).val < 256 := (i 0).isLt; show (i 0).val / 16 < grid0.N; rw [N_0]; omega⟩

/-- THE BLOCKS TILE the first output stack: entry (p, h, w) is in the block of point p / 16, which is written back. -/
theorem cover3 (i : S256x256x256.Idx) :
    ∃ t : Fin cfg0.N, (cfg0.win 3).flush t = true ∧ i ∈ ((cfg0.win 3).blk t).view.set := by
  have h0 : (i 0).val < 256 := (i 0).isLt
  have h1 : (i 1).val < 256 := (i 1).isLt
  have h2 : (i 2).val < 256 := (i 2).isLt
  refine ⟨pointOf i, flush0_3 _, ?_⟩
  obtain ⟨a0, a1, a2, b0, b1, b2, s0, s1, o0, o1, o2, p0, p1, p2⟩ := idx_facts (pointOf i)
  have ht : (pointOf i).val = (i 0).val / 16 := rfl
  rw [mem_blk3]
  intro a
  match a with
  | ⟨0, _⟩ => show win0_3.index (pointOf i) (0 : Fin 3) * 16 ≤ (i 0).val ∧ (i 0).val < win0_3.index (pointOf i) (0 : Fin 3) * 16 + 16; omega
  | ⟨1, _⟩ => show win0_3.index (pointOf i) (1 : Fin 3) * 256 ≤ (i 1).val ∧ (i 1).val < win0_3.index (pointOf i) (1 : Fin 3) * 256 + 256; omega
  | ⟨2, _⟩ => show win0_3.index (pointOf i) (2 : Fin 3) * 256 ≤ (i 2).val ∧ (i 2).val < win0_3.index (pointOf i) (2 : Fin 3) * 256 + 256; omega

/-- … and the second. -/
theorem cover4 (i : S256x256x256.Idx) :
    ∃ t : Fin cfg0.N, (cfg0.win 4).flush t = true ∧ i ∈ ((cfg0.win 4).blk t).view.set := by
  have h0 : (i 0).val < 256 := (i 0).isLt
  have h1 : (i 1).val < 256 := (i 1).isLt
  have h2 : (i 2).val < 256 := (i 2).isLt
  refine ⟨pointOf i, flush0_4 _, ?_⟩
  obtain ⟨a0, a1, a2, b0, b1, b2, s0, s1, o0, o1, o2, p0, p1, p2⟩ := idx_facts (pointOf i)
  have ht : (pointOf i).val = (i 0).val / 16 := rfl
  rw [mem_blk4]
  intro a
  match a with
  | ⟨0, _⟩ => show win0_4.index (pointOf i) (0 : Fin 3) * 16 ≤ (i 0).val ∧ (i 0).val < win0_4.index (pointOf i) (0 : Fin 3) * 16 + 16; omega
  | ⟨1, _⟩ => show win0_4.index (pointOf i) (1 : Fin 3) * 256 ≤ (i 1).val ∧ (i 1).val < win0_4.index (pointOf i) (1 : Fin 3) * 256 + 256; omega
  | ⟨2, _⟩ => show win0_4.index (pointOf i) (2 : Fin 3) * 256 ≤ (i 2).val ∧ (i 2).val < win0_4.index (pointOf i) (2 : Fin 3) * 256 + 256; omega

/-- THE FIRST OUTPUT STACK after the region: the first input stack times the plane of factors, as the region finds them. -/
theorem final3 (c : Dev nD) : (dats m 0 c).arrAt 3 cfg0.N
    = planeScale (F := F) (n := 256) (V m c main_call0_v0) (V m c main_call0_v3) :=
  (dats m 0 c).arrAt_eq_of_cover 3 _ (fun t _ => flushed3_eq m c t) cover3

/-- THE SECOND OUTPUT STACK after the region: the second input stack times the plane of factors. -/
theorem final4 (c : Dev nD) : (dats m 0 c).arrAt 4 cfg0.N
    = planeScale (F := F) (n := 256) (V m c main_call0_v1) (V m c main_call0_v3) :=
  (dats m 0 c).arrAt_eq_of_cover 4 _ (fun t _ => flushed4_eq m c t) cover4

end Cert.KernelIdeal.PlaneValue

end
-- ==== Proof.HostLines.lean ====
/-
  The lines of the program around the kernel's region, read as functions.

  Before the region three arrays are prepared: each of the two batches laid out as a stack of 256 planes, and the
  exponential of the row of 65536 numbers laid out as one 256 × 256 plane.  After the region each of the two product
  stacks is laid back out as a batch.  Together with what the region leaves in the two stacks this gives each result
  as one function of the three arguments.
-/
import proofs.«159716_j72559177499246_2_alg».proof.Proof.Gen.KernelIdeal.Frame
import proofs.«159716_j72559177499246_2_alg».proof.Proof.PlaneValue
import Idealize.ShloMosaic.Lib.StableHlo.Run

noncomputable section

namespace Cert.KernelIdeal.HostLines

open Cert.KernelIdeal Cert.KernelIdeal.Gen Idealize.ShloMosaic Idealize.ShloMosaic.TcCoe Idealize.SL.Sem Idealize.ShloMosaic.StableHlo
open Idealize.ShloMosaic.Pipeline (Dat)
open Cert.ColumnScale (planeScale colScale)

variable {F : FTy → Type} [FloatOps F]
variable (m : (ℓ : Loc nD τ sig) → Buf (Elt F) ℓ) (ρ : Dev nD → PrngReg)

/-! ## Before the region -/

/-- The first input stack, as the region finds it: the first batch laid out as 256 planes. -/
theorem V_v0 (c : Dev nD) : (V m c main_call0_v0 : S256x256x256.Idx → Elt F .f32)
    = shapeCast S256x256x256 (m ((c : Thread nD τ).loc main_arg0)) shapeCasts_S32x8x256x256_S256x256x256 := by
  show StableHlo.after hostOps0 (fun b => m (c, b)) (Proc.devRef .tc main_call0_v0) = _
  after_results
  rfl

/-- The second input stack: the second batch laid out as 256 planes. -/
theorem V_v1 (c : Dev nD) : (V m c main_call0_v1 : S256x256x256.Idx → Elt F .f32)
    = shapeCast S256x256x256 (m ((c : Thread nD τ).loc main_arg1)) shapeCasts_S32x8x256x256_S256x256x256 := by
  show StableHlo.after hostOps0 (fun b => m (c, b)) (Proc.devRef .tc main_call0_v1) = _
  after_results
  rfl

/-- The plane of factors: the exponential of the row, laid out as a plane. -/
theorem V_v3 (c : Dev nD) : (V m c main_call0_v3 : S256x256.Idx → Elt F .f32)
    = shapeCast S256x256 (Host.exp (m ((c : Thread nD τ).loc main_arg2))) shapeCasts_S65536_S256x256 := by
  show StableHlo.after hostOps0 (fun b => m (c, b)) (Proc.devRef .tc main_call0_v3) = _
  after_results
  rfl

/-! ## After the region -/

/-- The first result is the first product stack laid back out as a batch, whatever the buffers hold. -/
theorem tail_v0_0 (W : Valuation τ sig (Elt F)) :
    (StableHlo.after hostOps1 W (Proc.devRef .tc main_v0_0) : S32x8x256x256.Idx → Elt F .f32)
      = shapeCast S32x8x256x256 (W (Proc.devRef .tc main_call0_v4_0)) shapeCasts_S256x256x256_S32x8x256x256 := by
  after_results
  rfl

/-- The second result is the second product stack laid back out as a batch. -/
theorem tail_v0_1 (W : Valuation τ sig (Elt F)) :
    (StableHlo.after hostOps1 W (Proc.devRef .tc main_v0_1) : S32x8x256x256.Idx → Elt F .f32)
      = shapeCast S32x8x256x256 (W (Proc.devRef .tc main_call0_v4_1)) shapeCasts_S256x256x256_S32x8x256x256 := by
  after_results
  rfl

/-- THE FIRST RESULT: entry (n, k, h, w) of the first batch times the exponential of entry 256·h + w of the row. -/
theorem result0 (c : Dev nD) :
    (Pipeline.afterTail₀ cfgs (dats m) 0 (V0 m) [hostOps1] c main_v0_0 : S32x8x256x256.Idx → Elt F .f32)
      = colScale (F := F) (m ((c : Thread nD τ).loc main_arg0)) (m ((c : Thread nD τ).loc main_arg2)) := by
  unfold Pipeline.afterTail₀
  show StableHlo.after hostOps1 _ (Proc.devRef .tc main_v0_0) = _
  rw [tail_v0_0]
  refine (congrArg (fun X => shapeCast S32x8x256x256 X shapeCasts_S256x256x256_S32x8x256x256)
    ((Pipeline.withArrays_arr spec0 launch0.win.arr_inj c _ _ 3).trans (PlaneValue.final3 m c))).trans ?_
  show shapeCast S32x8x256x256 (planeScale (F := F) (n := 256) (V m c main_call0_v0) (V m c main_call0_v3)) _ = _
  rw [V_v0, V_v3]
  exact Cert.ColumnScale.relaid_eq _ _ _ _ _

/-- THE SECOND RESULT: the same with the second batch. -/
theorem result1 (c : Dev nD) :
    (Pipeline.afterTail₀ cfgs (dats m) 0 (V0 m) [hostOps1] c main_v0_1 : S32x8x256x256.Idx → Elt F .f32)
      = colScale (F := F) (m ((c : Thread nD τ).loc main_arg1)) (m ((c : Thread nD τ).loc main_arg2)) := by
  unfold Pipeline.afterTail₀
  show StableHlo.after hostOps1 _ (Proc.devRef .tc main_v0_1) = _
  rw [tail_v0_1]
  refine (congrArg (fun X => shapeCast S32x8x256x256 X shapeCasts_S256x256x256_S32x8x256x256)
    ((Pipeline.withArrays_arr spec0 launch0.win.arr_inj c _ _ 4).trans (PlaneValue.final4 m c))).trans ?_
  show shapeCast S32x8x256x256 (planeScale (F := F) (n := 256) (V m c main_call0_v1) (V m c main_call0_v3)) _ = _
  rw [V_v1, V_v3]
  exact Cert.ColumnScale.relaid_eq _ _ _ _ _

/-! ## The run -/

/-- Every weakly fair execution of the program ends with each result at `colScale` of its batch and the row, and the
    three arguments as they were. -/
theorem run : θ_run defs (onTc (τ := τ) (main (F := F))) ⟨m, fun _ => 0, ρ⟩ fun r => ∀ c : Dev nD,
      r.2.mem ((c.tc : Thread nD τ).loc main_v0_0) = colScale (F := F) (m ((c.tc : Thread nD τ).loc main_arg0)) (m ((c.tc : Thread nD τ).loc main_arg2))
      ∧ r.2.mem ((c.tc : Thread nD τ).loc main_v0_1) = colScale (F := F) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v0_0 (Pipeline.mem_restRefs_of main_v0_0 (by decide) (by decide))).trans (result0 m c),
     ((h c).2 main_v0_1 (Pipeline.mem_restRefs_of main_v0_1 (by decide) (by decide))).trans (result1 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.HostLines

end
-- ==== Proof.RefValue.lean ====
/-
  The reference's two results, index by index.

  The reference takes the exponential of the row of 65536 numbers, lays it out as a 256 × 256 plane, spreads the plane
  over the two leading axes of the batch and multiplies.  Reading the spreading steps back, entry (n, k, h, w) of the
  spread array is entry (h, w) of the plane, which is entry 256·h + w of the row: each result is `colScale`.
-/
import proofs.«159716_j72559177499246_2_alg».proof.Proof.Gen.ReferenceIdeal.Read
import proofs.«159716_j72559177499246_2_alg».proof.Proof.ColumnScale

noncomputable section

namespace Cert.ReferenceIdeal.RefValue

open Cert.ReferenceIdeal Cert.ReferenceIdeal.Read Idealize.ShloMosaic
open Cert.ColumnScale (colScale toFlat)

variable {F : FTy → Type} [FloatOps F]

/-- Through the two spreading steps and the laying-out, entry (n, k, h, w) comes from position 256·h + w of the row. -/
theorem flat_v3 (i : S32x8x256x256.Idx) : idx_main_v1 (idx_main_v2 (idx_main_v3 i)) = toFlat i :=
  funext fun a => Fin.ext (by match a with | ⟨0, _⟩ => rfl)

/-- The same for the second spreading. -/
theorem flat_v6 (i : S32x8x256x256.Idx) : idx_main_v1 (idx_main_v5 (idx_main_v6 i)) = toFlat i :=
  funext fun a => Fin.ext (by match a with | ⟨0, _⟩ => rfl)

/-- The first result of the reference is `colScale` of the first batch and the row. -/
theorem v4_eq (x0 : (⟨S32x8x256x256, .f32⟩ : BufTy).Contents (Elt F)) (x2 : (⟨S65536, .f32⟩ : BufTy).Contents (Elt F)) :
    val_main_v4 (F := F) x0 x2 = colScale (F := F) x0 x2 := by
  funext i
  rw [val_main_v4_apply, val_main_v3_apply, val_main_v2_apply, val_main_v1_apply, val_main_v0_apply, flat_v3]
  rfl

/-- The second result of the reference is `colScale` of the second batch and the row. -/
theorem v7_eq (x1 : (⟨S32x8x256x256, .f32⟩ : BufTy).Contents (Elt F)) (x2 : (⟨S65536, .f32⟩ : BufTy).Contents (Elt F)) :
    val_main_v7 (F := F) x1 x2 = colScale (F := F) x1 x2 := by
  funext i
  rw [val_main_v7_apply, val_main_v6_apply, val_main_v5_apply, val_main_v1_apply, val_main_v0_apply, flat_v6]
  rfl

end Cert.ReferenceIdeal.RefValue

end
-- ==== Proof.lean ====
/-
  A batch x of shape [32, 8, 256, 256] (given twice: a real and an imaginary part) is scaled, plane by plane, by the
  exponentials of a row b of 65536 numbers: the result at (n, k, h, w) is x (n, k, h, w) · exp (b (256·h + w)).

  The kernel program lays each batch out as a stack of 256 planes, lays exp b out as one 256 × 256 plane, multiplies
  sixteen planes at a time, and lays each product stack back out as a batch.  The reference spreads the plane exp b
  over the two leading axes of the batch and multiplies once.  Laying-out keeps row-major positions and spreading
  repeats the plane, so both compute the same product of the same two entries at every index (Proof/ColumnScale.lean);
  no law of the extended reals is needed, and the finiteness of the inputs is not used.

  Proof/PlaneValue.lean: what the region leaves in each product stack (what a grid point writes back is a block of one
  whole-array function; the sixteen blocks tile the stack).  Proof/HostLines.lean: the lines before and after the region
  and the program's run, each result at `colScale`.  Proof/RefValue.lean: the reference's results at `colScale`.
  Here: the five claims.  No operation was rewritten for the reading over the extended reals, so that claim is `True`.
-/
import proofs.«159716_j72559177499246_2_alg».proof.Defs
import proofs.«159716_j72559177499246_2_alg».proof.Proof.Gen.Kernel
import proofs.«159716_j72559177499246_2_alg».proof.Proof.Gen.Kernel.Skeleton
import proofs.«159716_j72559177499246_2_alg».proof.Proof.Gen.Kernel.Launch
import proofs.«159716_j72559177499246_2_alg».proof.Proof.Gen.Kernel.Points
import proofs.«159716_j72559177499246_2_alg».proof.Proof.Gen.Kernel.Frame
import proofs.«159716_j72559177499246_2_alg».proof.Proof.Gen.KernelIdeal
import proofs.«159716_j72559177499246_2_alg».proof.Proof.Gen.KernelIdeal.Skeleton
import proofs.«159716_j72559177499246_2_alg».proof.Proof.Gen.KernelIdeal.Launch
import proofs.«159716_j72559177499246_2_alg».proof.Proof.Gen.KernelIdeal.Points
import proofs.«159716_j72559177499246_2_alg».proof.Proof.Gen.KernelIdeal.Frame
import proofs.«159716_j72559177499246_2_alg».proof.Proof.Gen.ReferenceIdeal
import proofs.«159716_j72559177499246_2_alg».proof.Proof.Gen.Pre_finite_inputs
import proofs.«159716_j72559177499246_2_alg».proof.Proof.Gen.ReferenceIdeal.Run
import proofs.«159716_j72559177499246_2_alg».proof.Proof.Gen.ReferenceIdeal.Read
import proofs.«159716_j72559177499246_2_alg».proof.Proof.HostLines
import proofs.«159716_j72559177499246_2_alg».proof.Proof.RefValue
import Idealize.ShloMosaic.Adequacy
import Idealize.ShloMosaic.Init

noncomputable section

namespace Cert.Proof

open Idealize.ShloMosaic Idealize.SL.Sem
open Cert.ColumnScale (colScale)

/-- The program as printed runs and leaves its arguments as they were. -/
theorem frame_kernel : Cert.frame_Kernel := fun m ρ _ => Cert.Kernel.Gen.frame m ρ

/-- So does the program read over the extended reals. -/
theorem frame_kernelIdeal : Cert.frame_KernelIdeal := fun m ρ _ => Cert.KernelIdeal.Gen.frame m ρ

/-- The reference runs and leaves its arguments as they were: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation was rewritten for the reading over the extended reals: nothing to state. -/
theorem preserves : Cert.preserves_Kernel_KernelIdeal := trivial

/-- From memories that agree on the three arguments both programs end with each result at
    x (n, k, h, w) · exp (b (256·h + w)) of its batch x and the row b. -/
theorem algebraic : Cert.algebraic_KernelIdeal_ReferenceIdeal := by
  intro m ρ m' ρ' _ hagree
  refine ⟨fun c => colScale (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    fun c => colScale (F := Ideal) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.HostLines.run (F := Ideal) m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v4_eq, Cert.ReferenceIdeal.RefValue.v4_eq, (hagree c).1, (hagree c).2.2]
  · rw [(h c).2.1, Cert.ReferenceIdeal.Read.val_main_v7_eq, Cert.ReferenceIdeal.RefValue.v7_eq, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
